-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x512 : Shape := ⟨2, ![256, 512]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v15 : IVec S256x512 1) (main_c_5 : IVec S_ 1) : IVec S_ 1 :=
  let main_v16 : IVec S_ 1 := (fun x v => Host.reduce IntOp.andi x v reducesTo_S256x512_S_d0_1 h_S_) main_v15 main_c_5
  let main_v17 : IVec S_ 1 := andi main_v13 main_v16
  main_v17

def fn {F : FTy → Type} [FloatOps F] (main_arg0 : FVec F S131072x256 .f32) (main_arg1 : FVec F S256x512 .f32) (main_arg2 : FVec F S256x512 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_cst_4 : FVec F S_ .f32 := constant S_ .f32 0x00000000#32
  let main_v14 : FVec F S256x512 .f32 := broadcastInDim S256x512 ![] bcast_S_S256x512 main_cst_4
  let main_v15 : IVec S256x512 1 := cmpf .une main_arg2 main_v14
  let main_c_5 : IVec S_ 1 := constantI S_ 1 1#1
  fn_part1 (F := F) main_v13 main_v15 main_c_5
-- ==== Kernel.lean ====
abbrev S131072x256 : Shape := ⟨2, ![131072, 256]⟩
abbrev S256x512 : Shape := ⟨2, ![256, 512]⟩
abbrev S_ : Shape := ⟨0, ![]⟩
abbrev S512 : Shape := ⟨1, ![512]⟩
abbrev S1x512 : Shape := ⟨2, ![1, 512]⟩
abbrev S512x512 : Shape := ⟨2, ![512, 512]⟩
abbrev S131072x512 : Shape := ⟨2, ![131072, 512]⟩
abbrev S4096x256 : Shape := ⟨2, ![4096, 256]⟩
abbrev S4096x512 : Shape := ⟨2, ![4096, 512]⟩

abbrev nBuf : Space → Nat
  | .hbm => 31
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S512, .f32⟩
  | .hbm, ⟨12, _⟩ => ⟨S256x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S512x512, .f32⟩
  | .hbm, ⟨30, _⟩ => ⟨S131072x512, .f32⟩
  | .local _ .vmem, ⟨0, _⟩ => ⟨S4096x256, .f32⟩
  | .local _ .vmem, ⟨1, _⟩ => ⟨S4096x256, .f32⟩
  | .local _ .vmem, ⟨2, _⟩ => ⟨S512x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x512 : S_.BroadcastsInDim S256x512 (![] : Fin 0 → Fin S256x512.rank)
  reducesTo_S256x512_S512_d0 : S256x512.ReducesTo [0] S512
  h_S_ : 0 < S_.numel
  bcast_S_S512 : S_.BroadcastsInDim S512 (![] : Fin 0 → Fin S512.rank)
  shapeCasts_S512_S1x512 : S512.ShapeCasts S1x512
  concatenates_S256x512_S256x512_S512x512_d0 : Shape.Concatenates [S256x512, S256x512] S512x512 0
  inb_S4096x256_S4096x256_0_0 : ∀ a, (![0, 0] : Fin 2 → Nat) a + S4096x256.size a ≤ S4096x256.size a
  h_S4096x256 : 0 < S4096x256.numel
  concatenates_S4096x256_S4096x256_S4096x512_d1 : Shape.Concatenates [S4096x256, S4096x256] S4096x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S131072x512.size a
  hwx0_3 : ∀ i : grid0.Coords, EltTy.bits .f32 = 32 ∨ (Rect.block (s := S131072x512) S4096x512.size (cc0_transform_3 i) (hinb0_3 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x512 : Shape := ⟨2, ![256, 512]⟩
abbrev S_ : Shape := ⟨0, ![]⟩
abbrev S131072x512 : Shape := ⟨2, ![131072, 512]⟩
abbrev S512 : Shape := ⟨1, ![512]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S131072x256, .f32⟩
  | .hbm, ⟨8, _⟩ => ⟨S131072x512, .f32⟩
  | .hbm, ⟨9, _⟩ => ⟨S256x512, .f32⟩
  | .hbm, ⟨10, _⟩ => ⟨S131072x512, .f32⟩
  | .hbm, ⟨11, _⟩ => ⟨S_, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S131072x512, .f32⟩
  | .hbm, ⟨21, _⟩ => ⟨S131072x512, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S512, .f32⟩
  | .hbm, ⟨26, _⟩ => ⟨S_, .f32⟩
  | .hbm, ⟨27, _⟩ => ⟨S131072x512, .f32⟩
  | .hbm, ⟨28, _⟩ => ⟨S131072x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S_S131072x512 : S_.BroadcastsInDim S131072x512 (![] : Fin 0 → Fin S131072x512.rank)
  reducesTo_S256x512_S512_d0 : S256x512.ReducesTo [0] S512
  h_S_ : 0 < S_.numel
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S1x512 : S_.BroadcastsInDim S1x512 (![] : Fin 0 → Fin S1x512.rank)
  dot_S131072x256_S256x512_S131072x512_1_0_0_1_n_n_wf : DotDims.WF S131072x256 S256x512 S131072x512 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf

class Facts : Prop extends Facts₀ where

variable [Facts]
-- ==== Proof.Finite.lean ====
/-
  What the precondition says of the three argument arrays, entry by entry.

  The precondition is a conjunction of four "for all entries" tests: |x| < +∞, |l| < +∞, |s| < +∞ and s ≠ 0.
  On the extended reals |v| < +∞ holds exactly of the real numbers (|±∞| = +∞), so the first three say that
  every entry of x, l and s is a real number, and the fourth that no scale is zero. These are the facts the
  law joining the two programs needs: 1 / s² and log s² are then real, and so is every sum formed from them.
-/
import proofs.«178468_j13838384628107_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Gmm

open Idealize.ShloMosaic

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- An extended real that compares unequal to the zero pattern is not zero. -/
theorem ne_zero_of_cmp_ne (x : EReal)
    (h : Ideal.cmp .une x (Ideal.ofBits .f32 0x00000000#32) = 1#1) : x ≠ 0 := by
  rw [Ideal.ofBits_zero_f32] at h
  intro hx
  subst hx
  simp [Ideal.cmp] at h

section
open Cert.Pre_finite_inputs
variable [Cert.Pre_finite_inputs.Facts]

/-- Under the precondition every entry of the three arrays is a real number and no entry of the scales is zero. -/
theorem entries_of_pre (x0 : FVec Ideal S131072x256 .f32) (x1 x2 : FVec Ideal S256x512 .f32)
    (h : Cert.Pre_finite_inputs.fn (F := Ideal) x0 x1 x2 = fun _ => 1#1) :
    (∀ i, ∃ r : ℝ, x0 i = (r : EReal)) ∧ (∀ i, ∃ r : ℝ, x1 i = (r : EReal))
      ∧ (∀ i, ∃ r : ℝ, x2 i = (r : EReal)) ∧ (∀ i, x2 i ≠ 0) := by
  haveI : Subsingleton S_.Idx := ⟨fun a b => funext fun d => d.elim0⟩
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · have e := Host.reduce_andi_all _ _ _ _ _ h1 i
    rw [ValueIdx.cmpf_apply, broadcastInDim_apply _ Facts.bcast_S_S131072x256 _ i ValueIdx.ix0 (fun a => a.elim0)] at e
    exact real_of_abs_lt_inf _ e
  · have e := Host.reduce_andi_all _ _ _ _ _ h2 i
    rw [ValueIdx.cmpf_apply, broadcastInDim_apply _ Facts.bcast_S_S256x512 _ i ValueIdx.ix0 (fun a => a.elim0)] at e
    exact real_of_abs_lt_inf _ e
  · have e := Host.reduce_andi_all _ _ _ _ _ h3 i
    rw [ValueIdx.cmpf_apply, broadcastInDim_apply _ Facts.bcast_S_S256x512 _ i ValueIdx.ix0 (fun a => a.elim0)] at e
    exact real_of_abs_lt_inf _ e
  · have e := Host.reduce_andi_all _ _ _ _ _ h4 i
    rw [ValueIdx.cmpf_apply, broadcastInDim_apply _ Facts.bcast_S_S256x512 _ i ValueIdx.ix0 (fun a => a.elim0)] at e
    exact ne_zero_of_cmp_ne _ e

end

end Cert.Gmm

end
-- ==== Proof.LibVariance.lean ====
/- A general lemma about the two ways of writing a variance.

   For finitely many REAL numbers y_i and N their count (N ≠ 0), with S = Σ y_i and Q = Σ y_i²:
       Q/N − (S/N)²  =  (Σ (y_i − S/N)²) / N,
   since Σ (y_i − μ)² = Q − 2μS + Nμ² and μ = S/N gives Q − S²/N. The second theorem is the same equation
   between extended reals, each y_i a real seen as an extended real, every quotient the ideal instance's division
   by the real N: all the quantities are then real and the equation is the real one under the coercion. On
   extended reals in general the law is false (it distributes a product over a sum), which is why it is stated
   at finite entries only. Batch normalisation's statistics meet here: one program accumulates S and Q in one
   pass, the other centres first. -/
import Idealize.ShloMosaic.PureOps.Ideal

namespace Cert.Lib.Variance

open Idealize.ShloMosaic

variable {ι : Type} [Fintype ι]

/-- A finite sum of reals, each seen as an extended real, is the real sum seen as an extended real. -/
theorem coe_sum {κ : Type} (s : Finset κ) (f : κ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: the mean of the squares less the square of the mean is the mean of the squared deviations
    (quotients written as products with 1/N, the form the extended-real division by a real unfolds to). -/
theorem real_var (y : ι → ℝ) (N : ℝ) (hN : (Fintype.card ι : ℝ) = N) (h0 : N ≠ 0) :
    (∑ i, y i * y i) * (1 / N) - (∑ i, y i) * (1 / N) * ((∑ i, y i) * (1 / N))
      = (∑ i, (y i - (∑ j, y j) * (1 / N)) * (y i - (∑ j, y j) * (1 / N))) * (1 / N) := by
  have hsq : ∀ (μ : ℝ), ∑ i, (y i - μ) * (y i - μ) = (∑ i, y i * y i) - 2 * μ * (∑ i, y i) + N * (μ * μ) := by
    intro μ
    have : ∀ i, (y i - μ) * (y i - μ) = y i * y i - 2 * μ * y i + μ * μ := fun i => by ring
    simp only [this, Finset.sum_add_distrib, Finset.sum_sub_distrib, ← Finset.mul_sum, Finset.sum_const,
      Finset.card_univ, nsmul_eq_mul, hN]
    ring
  rw [hsq]
  field_simp
  ring

/-- The same between extended reals at finite entries, in the ideal instance's spelling: every quotient is
    the division by the real N. -/
theorem ideal_var (y : ι → ℝ) (N : ℝ) (hN : (Fintype.card ι : ℝ) = N) (h0 : N ≠ 0) :
    Ideal.div (∑ i, ((y i : ℝ) : EReal) * ((y i : ℝ) : EReal)) (N : EReal)
        - Ideal.div (∑ i, ((y i : ℝ) : EReal)) (N : EReal) * Ideal.div (∑ i, ((y i : ℝ) : EReal)) (N : EReal)
      = Ideal.div (∑ i, (((y i : ℝ) : EReal) - Ideal.div (∑ j, ((y j : ℝ) : EReal)) (N : EReal))
            * (((y i : ℝ) : EReal) - Ideal.div (∑ j, ((y j : ℝ) : EReal)) (N : EReal))) (N : EReal) := by
  simp only [Ideal.div_coe h0, ← EReal.coe_mul, coe_sum, ← EReal.coe_sub]
  exact congrArg Real.toEReal (real_var y N hN h0)

end Cert.Lib.Variance
-- ==== Proof.LibClipLaw.lean ====
/-
  Clipping a row to the unit ball, on the extended reals: general lemmas (no program, no shape).

  For a row with sum of squares `s`, one program scales the row by `min 1 (1 · s^(-1/2))`, the other by
  `1 / max (√s / 1) 1`. For every extended real `s ≥ 0` these are one number:
    * `s = 0`:  `s^(-1/2) = +∞`, so the minimum is `1`; and `√0 = 0`, `max 0 1 = 1`, `1 / 1 = 1`;
    * `0 < s < +∞`:  both are `1 / max (√s) 1`, since `min 1 (1/a) = 1 / max a 1` for a real `a > 0`;
    * `s = +∞`:  `s^(-1/2) = 0`, so the minimum is `0`; and `√s = +∞`, `1 / +∞ = 0`.
  Below zero the two sides differ (their conventional values there are not the same), so the hypothesis `0 ≤ s` is
  used; it always holds of a sum of squares, whatever the entries: `x · x ≥ 0` for every extended real `x`, the
  infinities included (`(-∞)·(-∞) = +∞`).
-/
import Idealize.ShloMosaic.PureOps.Ideal
import Mathlib.Algebra.Order.BigOperators.Group.Finset

noncomputable section

open scoped BigOperators

namespace Cert.Clip

open Idealize.ShloMosaic

/-- The single-precision pattern of `1.0` denotes the extended real `1`. -/
theorem ofBits_one : Ideal.ofBits .f32 0x3F800000#32 = 1 := by
  simp [Ideal.ofBits, Ideal.ieee, -EReal.coe_mul]; norm_num

/-- The factor a row of squared length `s` is scaled by: `min 1 (1 · s^(-1/2))`. -/
def scale (s : EReal) : EReal := min 1 (1 * Ideal.rsqrt s)

/-- A square is never negative on the extended reals. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

/-- So a sum of squares is never negative. -/
theorem sum_mul_self_nonneg {ι : Type} [Fintype ι] (f : ι → EReal) : 0 ≤ ∑ k, f k * f k :=
  Finset.sum_nonneg fun k _ => mul_self_nonneg (f k)

/-- Dividing by one changes nothing, at the infinities too. -/
theorem div_one (x : EReal) : Ideal.div x 1 = x := by
  rw [Ideal.div, if_neg one_ne_zero, ← EReal.coe_one, ← EReal.coe_inv, inv_one, EReal.coe_one, mul_one]

/-- One over a nonzero real is the real reciprocal. -/
theorem one_div_coe {y : ℝ} (hy : y ≠ 0) : Ideal.div 1 (y : EReal) = ((y⁻¹ : ℝ) : EReal) := by
  rw [Ideal.div, if_neg (by exact_mod_cast hy), one_mul, ← EReal.coe_inv]

/-- The coercion of the reals into the extended reals keeps maxima and minima. -/
theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- For a positive real `a`: `min 1 (1/a) = 1 / max a 1`. -/
theorem min_one_inv {a : ℝ} (ha : 0 < a) : min 1 a⁻¹ = (max a 1)⁻¹ := by
  rcases le_total a 1 with h | h
  · rw [max_eq_right h, inv_one, min_eq_left]
    exact (one_le_inv₀ ha).mpr h
  · rw [max_eq_left h, min_eq_right]
    exact inv_le_one_of_one_le₀ h

/-- THE LAW: on a nonnegative extended real the two spellings of the clipping factor agree. -/
theorem scale_eq (s : EReal) (hs : 0 ≤ s) :
    scale s = Ideal.div 1 (max (Ideal.div (Ideal.sqrt s) 1) 1) := by
  unfold scale
  rw [div_one, one_mul]
  induction s using EReal.rec with
  | bot => exact absurd hs (not_le.mpr EReal.bot_lt_zero)
  | top =>
    rw [Ideal.rsqrt_top, Ideal.sqrt_top, max_eq_left le_top, Ideal.div, if_neg EReal.top_ne_zero, EReal.inv_top,
      mul_zero, min_eq_right zero_le_one]
  | coe r =>
    have hr : 0 ≤ r := EReal.coe_nonneg.mp hs
    rw [Ideal.rsqrt_coe, Ideal.sqrt_coe, if_neg (not_lt.mpr hr), if_neg (not_lt.mpr hr)]
    rcases hr.eq_or_lt with h0 | hpos
    · subst h0
      rw [if_pos rfl, Real.sqrt_zero, min_eq_left le_top, EReal.coe_zero, max_eq_right zero_le_one, div_one]
    · have hq : 0 < Real.sqrt r := Real.sqrt_pos.mpr hpos
      have e1 : max ((Real.sqrt r : ℝ) : EReal) 1 = ((max (Real.sqrt r) 1 : ℝ) : EReal) := by
        rw [coe_max, EReal.coe_one]
      have e2 : min (1 : EReal) (((Real.sqrt r)⁻¹ : ℝ) : EReal) = ((min 1 (Real.sqrt r)⁻¹ : ℝ) : EReal) := by
        rw [coe_min, EReal.coe_one]
      rw [if_neg hpos.ne', e1, e2, one_div_coe (lt_of_lt_of_le hq (le_max_left _ _)).ne', min_one_inv hq]

end Cert.Clip

end
-- ==== Proof.Law.lean ====
/-
  The Gaussian-mixture log-density of one sample against one mixture component, and the law that joins its two
  arrangements.

  Fix a sample row x (256 features) and one component's column of means l and scales s. With q_k = 1 / s_k², the
  log-density is
        -½ · Σ_k (x_k - l_k)² q_k  -  ½ · Σ_k log s_k²  -  K          (K the constant 256 · ln(2π)/2).
  Expanding the square, Σ (x-l)² q = Σ x² q - 2 Σ x (l q) + Σ l² q. One arrangement (`refForm`) forms that sum of
  three and multiplies it by -½ afterwards; the other (`kerForm`) folds the -½ into the first weight, so that the
  two x-dependent sums are one product of the row (x², x) with the stacked column (-½ q, l q), and adds the
  x-independent remainder -½ Σ l² q - ½ Σ log s² - K as a bias.

  The two agree when every x_k, l_k, s_k is a real number and no s_k is zero: then q_k and log s_k² are real, every
  sum is a real sum, and the equation is distributivity in ℝ. On the extended reals it fails in general (at s_k = 0
  the weight q_k is +∞ and -½ · (∞ - ∞ + ∞) is not -½·∞ + ∞ - ½·∞), which is why the law is stated at real entries.
-/
import Idealize.ShloMosaic.PureOps.Ideal
import Idealize.ShloMosaic.PureOps.Ideal.Laws
import proofs.«178468_j13838384628107_2_alg».proof.Proof.LibVariance
import proofs.«178468_j13838384628107_2_alg».proof.Proof.LibClipLaw

noncomputable section

namespace Cert.Gmm

open Idealize.ShloMosaic

/-! ## The single-precision patterns the two programs carry -/

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The pattern of the additive constant 256 · ln(2π)/2 (rounded to single precision) denotes a real number;
    which one does not matter, both arrangements subtract it last. -/
theorem ofBits_K : Ideal.ofBits .f32 0x436B3F8E#32 = ((15417230 / 65536 : ℝ) : EReal) := by
  simp [Ideal.ofBits, Ideal.ieee, -EReal.coe_mul]; norm_num

/-! ## The two arrangements -/

/-- The weight of feature k: 1 / s_k², the numerator the pattern of 1.0. -/
def recipSq (s : Fin 256 → EReal) (k : Fin 256) : EReal :=
  Ideal.div (Ideal.ofBits .f32 0x3F800000#32) (s k * s k)

/-- -½ · (Σ x² q - 2 · Σ x (l q) + (0 + Σ l² q)) - ½ · (0 + Σ log s²) - K. -/
def refForm (x l s : Fin 256 → EReal) : EReal :=
  Ideal.ofBits .f32 0xBF000000#32
      * ((∑ k, x k * x k * recipSq s k) - Ideal.ofBits .f32 0x40000000#32 * (∑ k, x k * (l k * recipSq s k))
          + (Ideal.ofBits .f32 0x00000000#32 + ∑ k, l k * l k * recipSq s k))
    - Ideal.ofBits .f32 0x3F000000#32 * (Ideal.ofBits .f32 0x00000000#32 + ∑ k, Ideal.log (s k * s k))
    - Ideal.ofBits .f32 0x436B3F8E#32

/-- (Σ x² (-½ q) + Σ x (l q)) + (-½ · (0 + Σ l² q) - ½ · (0 + Σ log s²) - K). -/
def kerForm (x l s : Fin 256 → EReal) : EReal :=
  ((∑ k, x k * x k * (Ideal.ofBits .f32 0xBF000000#32 * recipSq s k)) + ∑ k, x k * (l k * recipSq s k))
    + (Ideal.ofBits .f32 0xBF000000#32 * (Ideal.ofBits .f32 0x00000000#32 + ∑ k, l k * l k * recipSq s k)
        - Ideal.ofBits .f32 0x3F000000#32 * (Ideal.ofBits .f32 0x00000000#32 + ∑ k, Ideal.log (s k * s k))
        - Ideal.ofBits .f32 0x436B3F8E#32)

/-! ## The law -/

/-- Over ℝ: folding -½ into the first weight and splitting off the x-independent part changes nothing. -/
theorem real_law (a b c q g : Fin 256 → ℝ) (K : ℝ) :
    ((∑ k, a k * (-(1 / 2) * q k)) + ∑ k, b k) + (-(1 / 2) * (0 + ∑ k, c k) - 1 / 2 * (0 + ∑ k, g k) - K)
      = -(1 / 2) * ((∑ k, a k * q k) - 2 * (∑ k, b k) + (0 + ∑ k, c k)) - 1 / 2 * (0 + ∑ k, g k) - K := by
  have hA : ∑ k, a k * (-(1 / 2) * q k) = -(1 / 2) * ∑ k, a k * q k := by
    rw [Finset.mul_sum]; exact Finset.sum_congr rfl fun k _ => by ring
  rw [hA]; ring

/-- At real entries with every scale nonzero the two arrangements are one extended real. -/
theorem law (xr lr sr : Fin 256 → ℝ) (hs : ∀ k, sr k ≠ 0) :
    kerForm (fun k => (xr k : EReal)) (fun k => (lr k : EReal)) (fun k => (sr k : EReal))
      = refForm (fun k => (xr k : EReal)) (fun k => (lr k : EReal)) (fun k => (sr k : EReal)) := by
  have hq : ∀ k, recipSq (fun k => (sr k : EReal)) k = (((sr k * sr k)⁻¹ : ℝ) : EReal) := fun k => by
    show Ideal.div (Ideal.ofBits .f32 0x3F800000#32) ((sr k : EReal) * (sr k : EReal)) = _
    rw [Cert.Clip.ofBits_one, ← EReal.coe_mul, Cert.Clip.one_div_coe (mul_self_ne_zero.mpr (hs k))]
  have hl : ∀ k, Ideal.log ((sr k : EReal) * (sr k : EReal)) = ((Real.log (sr k * sr k) : ℝ) : EReal) := fun k => by
    rw [← EReal.coe_mul, Ideal.log_coe, if_neg (not_le.mpr (mul_self_pos.mpr (hs k)))]
  unfold kerForm refForm
  simp only [hq, hl, ofBits_K, ofBits_two, ofBits_half, ofBits_neg_half, Ideal.ofBits_zero_f32]
  rw [← EReal.coe_zero]
  simp only [← EReal.coe_mul, Cert.Lib.Variance.coe_sum, ← EReal.coe_add, ← EReal.coe_sub]
  exact congrArg Real.toEReal
    (real_law (fun k => xr k * xr k) (fun k => xr k * (lr k * (sr k * sr k)⁻¹)) (fun k => lr k * lr k * (sr k * sr k)⁻¹)
      (fun k => (sr k * sr k)⁻¹) (fun k => Real.log (sr k * sr k)) (15417230 / 65536))

/-- The same for extended reals known only to be real numbers, entry by entry, the scales nonzero. -/
theorem law_of_real (x l s : Fin 256 → EReal) (hx : ∀ k, ∃ r : ℝ, x k = (r : EReal))
    (hl : ∀ k, ∃ r : ℝ, l k = (r : EReal)) (hs : ∀ k, ∃ r : ℝ, s k = (r : EReal)) (hs0 : ∀ k, s k ≠ 0) :
    kerForm x l s = refForm x l s := by
  choose xr hxr using hx
  choose lr hlr using hl
  choose sr hsr using hs
  obtain rfl : x = fun k => (xr k : EReal) := funext hxr
  obtain rfl : l = fun k => (lr k : EReal) := funext hlr
  obtain rfl : s = fun k => (sr k : EReal) := funext hsr
  exact law xr lr sr fun k h0 => hs0 k (by show ((sr k : ℝ) : EReal) = 0; rw [h0]; rfl)

end Cert.Gmm

end
-- ==== Proof.Spec.lean ====
/-
  The result array as one function of the three argument arrays.

  Entry (n, u) of the result is the log-density of sample row n (the 256 entries x(n, ·)) against mixture
  component u (the 256 means l(·, u) and scales s(·, u)), in the arrangement that multiplies the expanded
  quadratic by -½ at the end (`refForm`).
-/
import Idealize.ShloMosaic.Lib.ValueIdx
import proofs.«178468_j13838384628107_2_alg».proof.Proof.Law

noncomputable section

namespace Cert.Gmm

open Idealize.ShloMosaic Idealize.ShloMosaic.ValueIdx

/-- The two halves of a stacked axis of 512: position k of the upper half and position k of the lower half. -/
def lo (k : Fin 256) : Fin 512 := ⟨k.val, by omega⟩
def hi (k : Fin 256) : Fin 512 := ⟨256 + k.val, by omega⟩

/-- A sum over the 512 stacked positions is the sum over the upper half plus the sum over the lower half. -/
theorem sum_halves {M : Type} [AddCommMonoid M] (f : Fin 512 → M) :
    ∑ j, f j = (∑ k : Fin 256, f (lo k)) + ∑ k : Fin 256, f (hi k) :=
  Fin.sum_univ_add (fun j : Fin (256 + 256) => f j)

/-- Row n of the samples. -/
def sampleRow (X : (⟨2, ![131072, 256]⟩ : Shape).Idx → EReal) (n : Fin 131072) : Fin 256 → EReal :=
  fun k => X (ix2 n k)

/-- Column u of a parameter array. -/
def paramCol (P : (⟨2, ![256, 512]⟩ : Shape).Idx → EReal) (u : Fin 512) : Fin 256 → EReal :=
  fun k => P (ix2 k u)

/-- The whole result: entry (n, u) is the log-density of row n against component u. -/
def logDensity (X : (⟨2, ![131072, 256]⟩ : Shape).Idx → EReal) (Lm Sc : (⟨2, ![256, 512]⟩ : Shape).Idx → EReal) :
    (⟨2, ![131072, 512]⟩ : Shape).Idx → EReal :=
  fun i => refForm (sampleRow X (i 0)) (paramCol Lm (i 1)) (paramCol Sc (i 1))

end Cert.Gmm

end
-- ==== Proof.RefValue.lean ====
/-
  The reference computes the log-density array.

  Read at an index (n, u), the reference's last stage is -½ · (A - 2·B + C) - ½ · L - K with
  A = Σ_k x(n,k)² q(k,u), B = Σ_k x(n,k) (l(k,u) q(k,u)), C = 0 + Σ_k l(k,u)² q(k,u), L = 0 + Σ_k log s(k,u)²,
  q = 1 / s²: the two matrix products are sums over the contracted axis, the two column sums are sums over the rows,
  and the broadcasts of C and L along the samples read column u. That is `refForm` of row n and column u.
-/
import proofs.«178468_j13838384628107_2_alg».proof.Proof.Gen.ReferenceIdeal.Read
import proofs.«178468_j13838384628107_2_alg».proof.Proof.Spec

noncomputable section

namespace Cert.ReferenceIdeal.RefValue

open Cert.ReferenceIdeal Cert.ReferenceIdeal.Read Idealize.ShloMosaic Idealize.ShloMosaic.ValueIdx

/-- The reference's result stage is the log-density array, index by index. -/
theorem stage_eq (x0 : FVec Ideal S131072x256 .f32) (x1 x2 : FVec Ideal S256x512 .f32) :
    val_main_v27 (F := Ideal) x0 x1 x2 = Cert.Gmm.logDensity x0 x1 x2 := by
  funext i
  have eL4 : ∀ k, lidx_main_v4 i k = ix2 (i 0) k := fun k =>
    funext fun a => Fin.ext (by match a with | ⟨0, _⟩ => rfl | ⟨1, _⟩ => rfl)
  have eR4 : ∀ k, ridx_main_v4 i k = ix2 k (i 1) := fun k =>
    funext fun a => Fin.ext (by match a with | ⟨0, _⟩ => rfl | ⟨1, _⟩ => rfl)
  have eL6 : ∀ k, lidx_main_v6 i k = ix2 (i 0) k := fun k =>
    funext fun a => Fin.ext (by match a with | ⟨0, _⟩ => rfl | ⟨1, _⟩ => rfl)
  have eR6 : ∀ k, ridx_main_v6 i k = ix2 k (i 1) := fun k =>
    funext fun a => Fin.ext (by match a with | ⟨0, _⟩ => rfl | ⟨1, _⟩ => rfl)
  have e12 : ∀ k, idx_main_v12 (idx_main_v13 (idx_main_v14 i)) k = ix2 k (i 1) := fun k =>
    funext fun a => Fin.ext (by match a with | ⟨0, _⟩ => rfl | ⟨1, _⟩ => rfl)
  have e18 : ∀ k, idx_main_v18 (idx_main_v21 (idx_main_v24 i)) k = ix2 k (i 1) := fun k =>
    funext fun a => Fin.ext (by match a with | ⟨0, _⟩ => rfl | ⟨1, _⟩ => rfl)
  rw [val_main_v27_apply, val_main_v25_apply, val_main_v26_apply, val_main_cst_5_apply, val_main_v20_apply,
    val_main_v19_apply, val_main_cst_3_apply, val_main_v15_apply, val_main_v9_apply, val_main_v4_apply,
    val_main_v8_apply, val_main_v7_apply, val_main_cst_0_apply, val_main_v6_apply, val_main_v14_apply,
    val_main_v13_apply, val_main_v12_apply, val_main_cst_1_apply, val_main_v24_apply, val_main_v23_apply,
    val_main_v22_apply, val_main_cst_4_apply, val_main_v21_apply, val_main_v18_apply, val_main_cst_2_apply]
  simp only [val_main_v3_apply, val_main_v2_apply, val_main_v1_apply, val_main_cst_apply, val_main_v0_apply,
    val_main_v5_apply, val_main_v11_apply, val_main_v10_apply, val_main_v17_apply, val_main_v16_apply,
    eL4, eR4, eL6, eR6, e12, e18,
    Ideal.mulf_def, Ideal.subf_def, Ideal.addf_def, Ideal.hostDivf_def, Ideal.hostUnary_log_def, Ideal.ofBits_def]
  rfl

end Cert.ReferenceIdeal.RefValue

end
-- ==== Proof.KernelHost.lean ====
/-
  What the kernel's host operations hand to the region.

  Before the region the host forms, from the means l and the scales s (both 256 × 512), with q = 1 / s²:
    * the stacked weights W (512 × 512): rows 0..255 are -½ · q, rows 256..511 are l · q;
    * the bias b (1 × 512): b(0, u) = -½ · (0 + Σ_k l(k,u)² q(k,u)) - ½ · (0 + Σ_k log s(k,u)²) - K.
  Here both are written as functions of l and s (`weightsOf`, `biasOf`), shown to be what the region finds in the two
  arrays it stages whole, and read at an index.
-/
import proofs.«178468_j13838384628107_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws
import proofs.«178468_j13838384628107_2_alg».proof.Proof.Spec

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open Cert.Gmm (lo hi)

/-- q = 1 / s², entry by entry. -/
def recipSqOf (s : FVec Ideal S256x512 .f32) : FVec Ideal S256x512 .f32 :=
  Host.divf (broadcastInDim S256x512 ![] bcast_S_S256x512 (constant (F := Ideal) S_ .f32 0x3F800000#32)) (mulf s s)

/-- The stacked weights: -½ · q above l · q. -/
def weightsOf (l s : FVec Ideal S256x512 .f32) : FVec Ideal S512x512 .f32 :=
  concatenate S512x512 0
    [⟨S256x512, mulf (broadcastInDim S256x512 ![] bcast_S_S256x512 (constant (F := Ideal) S_ .f32 0xBF000000#32)) (recipSqOf s)⟩,
      ⟨S256x512, mulf l (recipSqOf s)⟩]
    concatenates_S256x512_S256x512_S512x512_d0

/-- The bias row. -/
def biasOf (l s : FVec Ideal S256x512 .f32) : FVec Ideal S1x512 .f32 :=
  shapeCast S1x512
    (subf
      (subf
        (mulf (broadcastInDim S512 ![] bcast_S_S512 (constant (F := Ideal) S_ .f32 0xBF000000#32))
          (Host.reduceAdd (mulf (mulf l l) (recipSqOf s)) (constant (F := Ideal) S_ .f32 0x00000000#32)
            reducesTo_S256x512_S512_d0 h_S_))
        (mulf (broadcastInDim S512 ![] bcast_S_S512 (constant (F := Ideal) S_ .f32 0x3F000000#32))
          (Host.reduceAdd (Host.log (mulf s s)) (constant (F := Ideal) S_ .f32 0x00000000#32)
            reducesTo_S256x512_S512_d0 h_S_)))
      (broadcastInDim S512 ![] bcast_S_S512 (constant (F := Ideal) S_ .f32 0x436B3F8E#32)))
    shapeCasts_S512_S1x512

variable (m : (ℓ : Loc nD τ sig) → Buf (Elt Ideal) ℓ)

/-- The array window 1 stages, as the region finds it, is the stacked weights of the launch's l and s. -/
theorem found_weights (c : Dev nD) :
    (V m c main_v19 : S512x512.Idx → EReal)
      = weightsOf (m ((c : Thread nD τ).loc main_arg1)) (m ((c : Thread nD τ).loc main_arg2)) := by
  dsimp only [V, hostOps0]
  after_results
  rfl

/-- The array window 2 stages, as the region finds it, is the bias row of the launch's l and s. -/
theorem found_bias (c : Dev nD) :
    (V m c main_v16 : S1x512.Idx → EReal)
      = biasOf (m ((c : Thread nD τ).loc main_arg1)) (m ((c : Thread nD τ).loc main_arg2)) := by
  dsimp only [V, hostOps0]
  after_results
  rfl

/-! ## Read at an index -/

theorem recipSqOf_apply (s : FVec Ideal S256x512 .f32) (k : Fin 256) (u : Fin 512) :
    recipSqOf s (ix2 k u) = Cert.Gmm.recipSq (Cert.Gmm.paramCol s u) k := by
  unfold recipSqOf
  show Ideal.div (broadcastInDim S256x512 ![] bcast_S_S256x512 (constant (F := Ideal) S_ .f32 0x3F800000#32) (ix2 k u))
      (s (ix2 k u) * s (ix2 k u)) = _
  rw [broadcastInDim_apply _ bcast_S_S256x512 _ (ix2 k u) ix0 (fun a => a.elim0)]
  rfl

/-- Two 256 × 512 arrays stacked along the rows: the upper half reads the first, the lower half the second. -/
theorem stack_lo (a b : FVec Ideal S256x512 .f32) (k : Fin 256) (u : Fin 512) :
    concatenate S512x512 0 [⟨S256x512, a⟩, ⟨S256x512, b⟩] concatenates_S256x512_S256x512_S512x512_d0 (ix2 (lo k) u)
      = a (ix2 k u) :=
  concatenate_pair_apply_left (0 : Fin 2) a b concatenates_S256x512_S256x512_S512x512_d0 (ix2 (lo k) u) rfl (ix2 k u)
    (fun d => by match d with | ⟨0, _⟩ => rfl | ⟨1, _⟩ => rfl)

theorem stack_hi (a b : FVec Ideal S256x512 .f32) (k : Fin 256) (u : Fin 512) :
    concatenate S512x512 0 [⟨S256x512, a⟩, ⟨S256x512, b⟩] concatenates_S256x512_S256x512_S512x512_d0 (ix2 (hi k) u)
      = b (ix2 k u) :=
  concatenate_pair_apply_right (0 : Fin 2) a b concatenates_S256x512_S256x512_S512x512_d0 (ix2 (hi k) u) rfl rfl (ix2 k u)
    (fun d hd => by match d with | ⟨0, _⟩ => exact absurd rfl hd | ⟨1, _⟩ => rfl)
    (by show k.val + 256 = 256 + k.val; omega)

/-- The upper half of the stacked weights at (k, u): -½ · q(k, u). -/
theorem weightsOf_lo (l s : FVec Ideal S256x512 .f32) (k : Fin 256) (u : Fin 512) :
    weightsOf l s (ix2 (lo k) u)
      = Ideal.ofBits .f32 0xBF000000#32 * Cert.Gmm.recipSq (Cert.Gmm.paramCol s u) k := by
  unfold weightsOf
  rw [stack_lo, mulf_apply, recipSqOf_apply, broadcastInDim_apply _ bcast_S_S256x512 _ (ix2 k u) ix0 (fun a => a.elim0)]
  rfl

/-- The lower half of the stacked weights at (k, u): l(k, u) · q(k, u). -/
theorem weightsOf_hi (l s : FVec Ideal S256x512 .f32) (k : Fin 256) (u : Fin 512) :
    weightsOf l s (ix2 (hi k) u)
      = Cert.Gmm.paramCol l u k * Cert.Gmm.recipSq (Cert.Gmm.paramCol s u) k := by
  unfold weightsOf
  rw [stack_hi, mulf_apply, recipSqOf_apply]
  rfl

/-- A column sum of a 256 × 512 array on the host, at column u: the initial value plus the sum down the column. -/
theorem colSum_apply (y : FVec Ideal S256x512 .f32) (z : FVec Ideal S_ .f32) (u : Fin 512) :
    Host.reduceAdd y z reducesTo_S256x512_S512_d0 h_S_ (ix1 u) = z (Shape.Idx.first h_S_) + ∑ k : Fin 256, y (ix2 k u) := by
  simp only [Host.reduceAdd, Ideal.hostReduceAdd_def]
  rw [Ideal.hostReduceAdd_single reducesTo_S256x512_S512_d0 (by decide)]
  refine congrArg (_ + ·) (Finset.sum_congr rfl fun k _ => ?_)
  exact congrArg y (funext fun a => Fin.ext (by match a with | ⟨0, _⟩ => rfl | ⟨1, _⟩ => rfl))

/-- The bias at column u: -½ · (0 + Σ l² q) - ½ · (0 + Σ log s²) - K, the sums down column u. -/
theorem biasOf_apply (l s : FVec Ideal S256x512 .f32) (u : Fin 512) :
    biasOf l s (ix2 (0 : Fin 1) u)
      = Ideal.ofBits .f32 0xBF000000#32
            * (Ideal.ofBits .f32 0x00000000#32
                + ∑ k, Cert.Gmm.paramCol l u k * Cert.Gmm.paramCol l u k * Cert.Gmm.recipSq (Cert.Gmm.paramCol s u) k)
          - Ideal.ofBits .f32 0x3F000000#32
            * (Ideal.ofBits .f32 0x00000000#32 + ∑ k, Ideal.log (Cert.Gmm.paramCol s u k * Cert.Gmm.paramCol s u k))
          - Ideal.ofBits .f32 0x436B3F8E#32 := by
  unfold biasOf
  rw [shapeCast_apply _ shapeCasts_S512_S1x512 (ix2 (0 : Fin 1) u) (ix1 u) (by
    rw [Shape.rowMajor_val_one, Shape.rowMajor_val_two]; show u.val = 0 * 512 + u.val; omega)]
  rw [subf_apply, subf_apply, mulf_apply, mulf_apply, colSum_apply, colSum_apply,
    broadcastInDim_apply _ bcast_S_S512 _ (ix1 u) ix0 (fun a => a.elim0),
    broadcastInDim_apply _ bcast_S_S512 _ (ix1 u) ix0 (fun a => a.elim0),
    broadcastInDim_apply _ bcast_S_S512 _ (ix1 u) ix0 (fun a => a.elim0)]
  simp only [mulf_apply, recipSqOf_apply]
  rfl

end Cert.KernelIdeal.HostValue

end
-- ==== Proof.KernelBody.lean ====
/-
  The kernel body's stored value, read at an index.

  From a block x of 4096 sample rows (4096 × 256), the stacked weights W (512 × 512) and the bias row b (1 × 512),
  the body stores  [x², x] · W + b : the row (x(p,·)², x(p,·)) of length 512 times column u of W, plus b(0, u).
  Split over the two halves of the stacked axis, entry (p, u) is
        Σ_k x(p,k)² · W(k, u)  +  Σ_k x(p,k) · W(256 + k, u)  +  b(0, u).
-/
import proofs.«178468_j13838384628107_2_alg».proof.Proof.Gen.KernelIdeal.Skeleton
import Idealize.ShloMosaic.Lib.Pipeline.Value
import Idealize.ShloMosaic.Lib.ValueIdx
import Idealize.ShloMosaic.PureOps.Ideal.Laws
import proofs.«178468_j13838384628107_2_alg».proof.Proof.Spec

noncomputable section

namespace Cert.KernelIdeal.BodyValue

open Cert.KernelIdeal Cert.KernelIdeal.Gen Idealize.ShloMosaic Idealize.ShloMosaic.ValueIdx
open Cert.Gmm (lo hi sum_halves)

/-! ## The product's operand indices -/

theorem lhs0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl

theorem lhs1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q

theorem rhs0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q

theorem rhs1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

/-- The matrix product into a zero accumulator at (p, u): row p of the left operand times column u of the right. -/
theorem product_at (a : FVec Ideal S4096x512 .f32) (w : FVec Ideal S512x512 .f32) (p : Fin 4096) (u : Fin 512) :
    matmul dot_S4096x512_S512x512_S4096x512_1_0_0_1_n_n (some .fp32) a w (constant (F := Ideal) S4096x512 .f32 0x00000000#32) (ix2 p u)
      = ∑ j : Fin 512, a (ix2 p j) * w (ix2 j u) := by
  simp only [matmul]
  rw [Ideal.matmul_constant_zero_apply,
    ← Equiv.sum_comp (contrEquiv1 dot_S4096x512_S512x512_S4096x512_1_0_0_1_n_n 512 rfl rfl).symm]
  refine Finset.sum_congr rfl fun j _ => ?_
  have hj := contrEquiv1_symm_val dot_S4096x512_S512x512_S4096x512_1_0_0_1_n_n 512 rfl rfl j
  have el : dot_S4096x512_S512x512_S4096x512_1_0_0_1_n_n.lhsIdx (ix2 p u)
      ((contrEquiv1 dot_S4096x512_S512x512_S4096x512_1_0_0_1_n_n 512 rfl rfl).symm j) = ix2 p j :=
    funext fun b => Fin.ext (by
      match b with
      | ⟨0, _⟩ => exact lhs0 _ _
      | ⟨1, _⟩ => exact (lhs1 _ _).trans hj)
  have er : dot_S4096x512_S512x512_S4096x512_1_0_0_1_n_n.rhsIdx (ix2 p u)
      ((contrEquiv1 dot_S4096x512_S512x512_S4096x512_1_0_0_1_n_n 512 rfl rfl).symm j) = ix2 j u :=
    funext fun b => Fin.ext (by
      match b with
      | ⟨0, _⟩ => exact (rhs0 _ _).trans hj
      | ⟨1, _⟩ => exact rhs1 _ _)
  rw [el, er]

/-! ## The row (x², x) -/

/-- The first 256 entries of the concatenated row are the first piece's. -/
theorem row_lo (a b : FVec Ideal S4096x256 .f32) (p : Fin 4096) (k : Fin 256) :
    concatenate S4096x512 1 [⟨S4096x256, a⟩, ⟨S4096x256, b⟩] concatenates_S4096x256_S4096x256_S4096x512_d1 (ix2 p (lo k))
      = a (ix2 p k) :=
  concatenate_pair_apply_left (1 : Fin 2) a b concatenates_S4096x256_S4096x256_S4096x512_d1 (ix2 p (lo k)) rfl (ix2 p k)
    (fun d => by match d with | ⟨0, _⟩ => rfl | ⟨1, _⟩ => rfl)

/-- The last 256 entries are the second piece's. -/
theorem row_hi (a b : FVec Ideal S4096x256 .f32) (p : Fin 4096) (k : Fin 256) :
    concatenate S4096x512 1 [⟨S4096x256, a⟩, ⟨S4096x256, b⟩] concatenates_S4096x256_S4096x256_S4096x512_d1 (ix2 p (hi k))
      = b (ix2 p k) :=
  concatenate_pair_apply_right (1 : Fin 2) a b concatenates_S4096x256_S4096x256_S4096x512_d1 (ix2 p (hi k)) rfl rfl (ix2 p k)
    (fun d hd => by match d with | ⟨0, _⟩ => rfl | ⟨1, _⟩ => exact absurd rfl hd)
    (by show k.val + 256 = 256 + k.val; omega)

/-- The bias row broadcast down the 4096 rows reads column u of the row. -/
theorem bias_at (b : FVec Ideal S1x512 .f32) (p : Fin 4096) (u : Fin 512) :
    broadcastTo S4096x512 b broadcasts_S1x512_S4096x512 (ix2 p u) = b (ix2 (0 : Fin 1) u) :=
  broadcastTo_apply b broadcasts_S1x512_S4096x512 (ix2 p u) (ix2 (0 : Fin 1) u) (fun d => by
    match d with
    | ⟨0, _⟩ => show 0 = if (1 : Nat) = 1 then 0 else p.val; rw [if_pos rfl]
    | ⟨1, _⟩ => show u.val = if (512 : Nat) = 1 then 0 else u.val; rw [if_neg (by decide)])

/-! ## The stored value -/

/-- Entry (p, u) of what the body stores. -/
theorem stored_at (x : Vec Ideal S4096x256 .f32) (w : Vec Ideal S512x512 .f32) (b : Vec Ideal S1x512 .f32)
    (p : Fin 4096) (u : Fin 512) :
    k0_pay1 (F := Ideal) x w b (ix2 p u)
      = ((∑ k : Fin 256, x (ix2 p k) * x (ix2 p k) * w (ix2 (lo k) u)) + ∑ k : Fin 256, x (ix2 p k) * w (ix2 (hi k) u))
        + b (ix2 (0 : Fin 1) u) := by
  unfold k0_pay1
  rw [addf_apply, product_at, sum_halves, shapeCast_self, shapeCast_self, bias_at]
  simp only [row_lo, row_hi, mulf_apply]

end Cert.KernelIdeal.BodyValue

end
-- ==== Proof.KernelValue.lean ====
/-
  The kernel computes the log-density array.

  The grid has 32 points; point t works on sample rows 4096·t .. 4096·t + 4095 (a 4096 × 256 block of x), with the
  stacked weights and the bias row staged whole at every point, and writes back rows 4096·t .. 4096·t + 4095 of
  the result (a 4096 × 512 block). Entry (p, u) of what point t writes is
      Σ_k x(r,k)² (-½ q(k,u)) + Σ_k x(r,k) (l(k,u) q(k,u)) + (-½ (0 + Σ_k l(k,u)² q(k,u)) - ½ (0 + Σ_k log s(k,u)²) - K)
  with r = 4096·t + p and q = 1 / s²: the folded arrangement of the log-density of row r against component u. When
  every entry of x, l, s is a real number and no scale is zero this is the log-density itself (the law), so each
  point writes its block of the log-density array; the 32 blocks tile the array's rows, so the array ends holding it.
-/
import proofs.«178468_j13838384628107_2_alg».proof.Proof.Gen.KernelIdeal.Value
import proofs.«178468_j13838384628107_2_alg».proof.Proof.KernelHost
import proofs.«178468_j13838384628107_2_alg».proof.Proof.KernelBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value
open Cert.Gmm (lo hi)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point t: the samples' and the result's blocks move down the rows with
    t, the weights and the bias stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array row that row p of point t's block is. -/
def rowOf (t : Fin cfg0.N) (p : Fin 4096) : Fin 131072 :=
  ⟨t.val * 4096 + p.val, by
    have h := t.isLt
    have e : cfg0.N = 32 := N_0
    have := p.isLt
    omega⟩

/-! ## The input windows' blocks -/

/-- Point t's block of samples is rows 4096·t .. of the launch's x. -/
theorem x_block (c : Dev nD) (t : Fin cfg0.N) (p : Fin 4096) (k : Fin 256) :
    (iblk m c 0 t : Vec Ideal S4096x256 .f32) (ix2 p k)
      = (m ((c : Thread nD τ).loc main_arg0) : S131072x256.Idx → EReal) (ix2 (rowOf t p) k) := by
  obtain ⟨e0, e1, -⟩ := block_index t
  show V m c main_arg0 (((cfg0.win 0).blk t).view.emb (ix2 p k)) = _
  rw [V_main_arg0]
  congr 1
  funext a
  apply Fin.ext
  match a with
  | ⟨0, _⟩ => show win0_0.index t (0 : Fin 2) * 4096 + 1 * p.val = t.val * 4096 + p.val; rw [e0]; omega
  | ⟨1, _⟩ => show win0_0.index t (1 : Fin 2) * 256 + 1 * k.val = k.val; rw [e1]; omega

/-- Every point's block of weights is the whole stacked-weights array. -/
theorem w_block (c : Dev nD) (t : Fin cfg0.N) (j u : Fin 512) :
    (iblk m c 1 t : Vec Ideal S512x512 .f32) (ix2 j u)
      = HostValue.weightsOf (m ((c : Thread nD τ).loc main_arg1)) (m ((c : Thread nD τ).loc main_arg2)) (ix2 j u) := by
  obtain ⟨-, -, e2, e3, -⟩ := block_index t
  have e : ((cfg0.win 1).blk t).view.emb (ix2 j u) = (ix2 j u : S512x512.Idx) := funext fun a => Fin.ext (by
    match a with
    | ⟨0, _⟩ => show win0_1.index t (0 : Fin 2) * 512 + 1 * j.val = j.val; rw [e2]; omega
    | ⟨1, _⟩ => show win0_1.index t (1 : Fin 2) * 512 + 1 * u.val = u.val; rw [e3]; omega)
  show V m c main_v19 (((cfg0.win 1).blk t).view.emb (ix2 j u)) = _
  rw [e, HostValue.found_weights]

/-- Every point's block of the bias is the whole bias row. -/
theorem b_block (c : Dev nD) (t : Fin cfg0.N) (u : Fin 512) :
    (iblk m c 2 t : Vec Ideal S1x512 .f32) (ix2 (0 : Fin 1) u)
      = HostValue.biasOf (m ((c : Thread nD τ).loc main_arg1)) (m ((c : Thread nD τ).loc main_arg2)) (ix2 (0 : Fin 1) u) := by
  obtain ⟨-, -, -, -, e4, e5, -⟩ := block_index t
  have e : ((cfg0.win 2).blk t).view.emb (ix2 (0 : Fin 1) u) = (ix2 (0 : Fin 1) u : S1x512.Idx) := funext fun a => Fin.ext (by
    match a with
    | ⟨0, _⟩ => show win0_2.index t (0 : Fin 2) * 1 + 1 * 0 = 0; rw [e4]
    | ⟨1, _⟩ => show win0_2.index t (1 : Fin 2) * 512 + 1 * u.val = u.val; rw [e5]; omega)
  show V m c main_v16 (((cfg0.win 2).blk t).view.emb (ix2 (0 : Fin 1) u)) = _
  rw [e, HostValue.found_bias]

/-- Entry (p, u) of point t's result block is entry (4096·t + p, u) of the result array. -/
theorem out_index (t : Fin cfg0.N) (p : Fin 4096) (u : Fin 512) :
    ((cfg0.win 3).blk t).view.emb (ix2 p u) = (ix2 (rowOf t p) u : S131072x512.Idx) := by
  obtain ⟨-, -, -, -, -, -, e6, e7⟩ := block_index t
  funext a
  apply Fin.ext
  match a with
  | ⟨0, _⟩ => show win0_3.index t (0 : Fin 2) * 4096 + 1 * p.val = t.val * 4096 + p.val; rw [e6]; omega
  | ⟨1, _⟩ => show win0_3.index t (1 : Fin 2) * 512 + 1 * u.val = u.val; rw [e7]; omega

/-! ## What each point writes back, and the whole array -/

section
variable (c : Dev nD)
  (hx : ∀ i, ∃ r : ℝ, (m ((c : Thread nD τ).loc main_arg0) : S131072x256.Idx → EReal) i = (r : EReal))
  (hl : ∀ i, ∃ r : ℝ, (m ((c : Thread nD τ).loc main_arg1) : S256x512.Idx → EReal) i = (r : EReal))
  (hs : ∀ i, ∃ r : ℝ, (m ((c : Thread nD τ).loc main_arg2) : S256x512.Idx → EReal) i = (r : EReal))
  (hs0 : ∀ i, (m ((c : Thread nD τ).loc main_arg2) : S256x512.Idx → EReal) i ≠ (0 : EReal))
include hx hl hs hs0

/-- Point t writes back its block of the log-density array of the launch's x, l and s. -/
theorem flushed_eq (t : Fin cfg0.N) :
    (dats m 0 c).flushed 3 t = ((cfg0.win 3).blk t).view.read (Elt Ideal)
      (Cert.Gmm.logDensity (m ((c : Thread nD τ).loc main_arg0)) (m ((c : Thread nD τ).loc main_arg1))
        (m ((c : Thread nD τ).loc main_arg2))) := by
  rw [flushed3]
  unfold out0_3
  rw [View.canon_unit_zero hz]
  simp only [View.ld_unit_zero (S := S4096x256) hz, View.ld_unit_zero (S := S512x512) hz, View.ld_unit_zero (S := S1x512) hz]
  funext j
  obtain ⟨p, u, rfl⟩ : ∃ (p : Fin 4096) (u : Fin 512), j = ix2 p u := ⟨j 0, j 1, eq_ix2 j⟩
  show k0_pay1 (iblk m c 0 t) (iblk m c 1 t) (iblk m c 2 t) (ix2 p u)
    = Cert.Gmm.logDensity _ _ _ (((cfg0.win 3).blk t).view.emb (ix2 p u))
  rw [out_index]
  refine (BodyValue.stored_at (iblk m c 0 t) (iblk m c 1 t) (iblk m c 2 t) p u).trans ?_
  simp only [x_block, w_block, b_block, HostValue.weightsOf_lo, HostValue.weightsOf_hi, HostValue.biasOf_apply]
  exact Cert.Gmm.law_of_real (Cert.Gmm.sampleRow (m ((c : Thread nD τ).loc main_arg0)) (rowOf t p))
    (Cert.Gmm.paramCol (m ((c : Thread nD τ).loc main_arg1)) u) (Cert.Gmm.paramCol (m ((c : Thread nD τ).loc main_arg2)) u)
    (fun k => hx _) (fun k => hl _) (fun k => hs _) (fun k => hs0 _)

omit hx hl hs hs0 in
/-- Every row of the result array lies in the block of the point that owns it: rows 4096·t .. belong to point t. -/
theorem cover (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 32 := N_0
  have ht : (i 0).val / 4096 < cfg0.N := by rw [hN]; omega
  refine ⟨⟨(i 0).val / 4096, ht⟩, flush0_3 _, ?_⟩
  obtain ⟨-, -, -, -, -, -, e6, e7⟩ := block_index ⟨(i 0).val / 4096, ht⟩
  show i ∈ ((View.whole main_v20).slice (win0_3.rect ⟨(i 0).val / 4096, ht⟩)).set
  rw [View.set_slice_whole, Rect.mem_set_unit]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e6]
    show (i 0).val / 4096 * 4096 ≤ (i 0).val ∧ (i 0).val < (i 0).val / 4096 * 4096 + 4096
    omega
  | ⟨1, _⟩ =>
    show win0_3.index ⟨(i 0).val / 4096, ht⟩ (1 : Fin 2) * 512 ≤ (i 1).val
      ∧ (i 1).val < win0_3.index ⟨(i 0).val / 4096, ht⟩ (1 : Fin 2) * 512 + 512
    rw [e7]
    omega

/-- So the result array ends holding the log-density array. -/
theorem final :
    (dats m 0 c).arrAt 3 cfg0.N
      = Cert.Gmm.logDensity (m ((c : Thread nD τ).loc main_arg0)) (m ((c : Thread nD τ).loc main_arg1))
          (m ((c : Thread nD τ).loc main_arg2)) :=
  (dats m 0 c).arrAt_eq_of_cover 3 _ (fun t _ => flushed_eq m c hx hl hs hs0 t) cover

end

/-- The kernel's run, read: where every entry of the launch's arrays is a real number and no scale is zero, the
    result array ends at the log-density array of the launch's arrays, and the arguments are unchanged. -/
theorem run
    (hx : ∀ (c : Dev nD) i, ∃ r : ℝ, (m ((c : Thread nD τ).loc main_arg0) : S131072x256.Idx → EReal) i = (r : EReal))
    (hl : ∀ (c : Dev nD) i, ∃ r : ℝ, (m ((c : Thread nD τ).loc main_arg1) : S256x512.Idx → EReal) i = (r : EReal))
    (hs : ∀ (c : Dev nD) i, ∃ r : ℝ, (m ((c : Thread nD τ).loc main_arg2) : S256x512.Idx → EReal) i = (r : EReal))
    (hs0 : ∀ (c : Dev nD) i, (m ((c : Thread nD τ).loc main_arg2) : S256x512.Idx → EReal) i ≠ (0 : EReal)) :
    θ_run defs (onTc (τ := τ) (main (F := Ideal))) ⟨m, fun _ => 0, ρ⟩ fun r => ∀ c : Dev nD,
      r.2.mem ((c : Thread nD τ).loc main_v20)
        = Cert.Gmm.logDensity (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hx c) (hl c) (hs c) (hs0 c)), (h c).2⟩)
    (run_blocks m ρ)

end Cert.KernelIdeal.ArrayValue

end
-- ==== Proof.lean ====
/-
  A Gaussian-mixture log-density layer: for 131072 samples x(n, ·) of 256 features and 512 mixture components with
  means l(·, u) and scales s(·, u), the result is
        out(n, u) = -½ · Σ_k ((x(n,k) - l(k,u)) / s(k,u))²  -  ½ · Σ_k log s(k,u)²  -  256 · ln(2π)/2 .

  The reference expands the square, Σ (x-l)²/s² = x²·q - 2 x·(l q) + Σ l² q with q = 1/s² (two matrix products and
  a column sum), and multiplies by -½ afterwards. The kernel folds the -½ into the first weight: on the host it
  stacks the weights (-½ q above l q) and forms the bias -½ Σ l² q - ½ Σ log s² - K; on the chip, block by block of
  4096 samples, it multiplies the row (x², x) with the stacked weights in ONE matrix product and adds the bias.

  On the extended reals the two agree where every entry of x, l and s is a real number and no scale is zero: then
  q and log s² are real and the equation is distributivity in ℝ (Proof/Law.lean). Both conditions are the claim's
  precondition; the second is the reference's own domain (it divides by s² and takes log s²), and without it the
  claim fails: with one scale zero and the matching x and l equal to 1 the kernel's sum -∞ + ∞ reads -∞ where the
  reference's -½ · (∞ - ∞ + ∞) reads +∞.

  The kernel's value is read off its generated frame run block by block (Proof/KernelBody.lean: what the body
  stores; Proof/KernelHost.lean: the stacked weights and the bias; Proof/KernelValue.lean: each grid point's block
  and the tiling of the result), the reference's off its generated run (Proof/RefValue.lean); both are the one
  function `Cert.Gmm.logDensity` of the argument arrays (Proof/Spec.lean). The idealization rewrote nothing, so
  the kernel's idealized text is its own text read on the extended reals.
-/
import proofs.«178468_j13838384628107_2_alg».proof.Defs
import proofs.«178468_j13838384628107_2_alg».proof.Proof.Gen.Kernel
import proofs.«178468_j13838384628107_2_alg».proof.Proof.Gen.Kernel.Skeleton
import proofs.«178468_j13838384628107_2_alg».proof.Proof.Gen.Kernel.Launch
import proofs.«178468_j13838384628107_2_alg».proof.Proof.Gen.Kernel.Points
import proofs.«178468_j13838384628107_2_alg».proof.Proof.Gen.Kernel.Frame
import proofs.«178468_j13838384628107_2_alg».proof.Proof.Gen.KernelIdeal
import proofs.«178468_j13838384628107_2_alg».proof.Proof.Gen.KernelIdeal.Skeleton
import proofs.«178468_j13838384628107_2_alg».proof.Proof.Gen.KernelIdeal.Launch
import proofs.«178468_j13838384628107_2_alg».proof.Proof.Gen.KernelIdeal.Points
import proofs.«178468_j13838384628107_2_alg».proof.Proof.Gen.KernelIdeal.Frame
import proofs.«178468_j13838384628107_2_alg».proof.Proof.Gen.KernelIdeal.Value
import proofs.«178468_j13838384628107_2_alg».proof.Proof.Gen.ReferenceIdeal.Run
import proofs.«178468_j13838384628107_2_alg».proof.Proof.Gen.ReferenceIdeal.Read
import proofs.«178468_j13838384628107_2_alg».proof.Proof.Gen.ReferenceIdeal
import proofs.«178468_j13838384628107_2_alg».proof.Proof.Gen.Pre_finite_inputs
import proofs.«178468_j13838384628107_2_alg».proof.Proof.Finite
import proofs.«178468_j13838384628107_2_alg».proof.Proof.RefValue
import proofs.«178468_j13838384628107_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, l and s, all real with no scale zero, both programs end with the log-density
    array of those arguments. -/
theorem algebraic : Cert.algebraic_KernelIdeal_ReferenceIdeal := by
  intro m ρ m' ρ' hpre hagree
  have hent := fun c => Cert.Gmm.entries_of_pre _ _ _ (hpre c)
  refine ⟨_, Cert.KernelIdeal.ArrayValue.run m ρ (fun c => (hent c).1) (fun c => (hent c).2.1)
    (fun c => (hent c).2.2.1) (fun c => (hent c).2.2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
